-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x20 : Shape := ⟨2, ![2000000, 20]⟩
abbrev S20x20 : Shape := ⟨2, ![20, 20]⟩
abbrev S_ : Shape := ⟨0, ![]⟩

class Facts : Prop where
  bcast_S_S2000000x20 : S_.BroadcastsInDim S2000000x20 (![] : Fin 0 → Fin S2000000x20.rank)
  reducesTo_S2000000x20_S_d0_1 : S2000000x20.ReducesTo [0, 1] S_
  h_S_ : 0 < S_.numel
  bcast_S_S20x20 : S_.BroadcastsInDim S20x20 (![] : Fin 0 → Fin S20x20.rank)
  reducesTo_S20x20_S_d0_1 : S20x20.ReducesTo [0, 1] S_

variable [Facts]

def fn {F : FTy → Type} [FloatOps F] (main_arg0 : FVec F S2000000x20 .f32) (main_arg1 : FVec F S20x20 .f32) : IVec S_ 1 :=
  let main_v0 : FVec F S2000000x20 .f32 := Host.absf main_arg0
  let main_cst : FVec F S_ .f32 := constant S_ .f32 0x7F800000#32
  let main_v1 : FVec F S2000000x20 .f32 := broadcastInDim S2000000x20 ![] bcast_S_S2000000x20 main_cst
  let main_v2 : IVec S2000000x20 1 := cmpf .olt main_v0 main_v1
  let main_c : IVec S_ 1 := constantI S_ 1 1#1
  let main_v3 : IVec S_ 1 := (fun x v => Host.reduce IntOp.andi x v reducesTo_S2000000x20_S_d0_1 h_S_) main_v2 main_c
  let main_v4 : FVec F S20x20 .f32 := Host.absf main_arg1
  let main_cst_0 : FVec F S_ .f32 := constant S_ .f32 0x7F800000#32
  let main_v5 : FVec F S20x20 .f32 := broadcastInDim S20x20 ![] bcast_S_S20x20 main_cst_0
  let main_v6 : IVec S20x20 1 := cmpf .olt main_v4 main_v5
  let main_c_1 : IVec S_ 1 := constantI S_ 1 1#1
  let main_v7 : IVec S_ 1 := (fun x v => Host.reduce IntOp.andi x v reducesTo_S20x20_S_d0_1 h_S_) main_v6 main_c_1
  let main_v8 : IVec S_ 1 := andi main_v3 main_v7
  main_v8
-- ==== Kernel.lean ====
abbrev S2000000x20 : Shape := ⟨2, ![2000000, 20]⟩
abbrev S20x20 : Shape := ⟨2, ![20, 20]⟩
abbrev S5x5 : Shape := ⟨2, ![5, 5]⟩
abbrev S_ : Shape := ⟨0, ![]⟩
abbrev S5x1x5x1 : Shape := ⟨4, ![5, 1, 5, 1]⟩
abbrev S1x20x1x20 : Shape := ⟨4, ![1, 20, 1, 20]⟩
abbrev S5x20x5x20 : Shape := ⟨4, ![5, 20, 5, 20]⟩
abbrev S100x100 : Shape := ⟨2, ![100, 100]⟩
abbrev S400000x100 : Shape := ⟨2, ![400000, 100]⟩
abbrev S10000x100 : Shape := ⟨2, ![10000, 100]⟩

abbrev nBuf : Space → Nat
  | .hbm => 23
  | .vmem => 5
  | .smem => 0
  | _ => 0

abbrev bufTy : (tb : Table) → Fin (tcTables nBuf tb) → BufTy
  | .hbm, ⟨0, _⟩ => ⟨S2000000x20, .f32⟩
  | .hbm, ⟨1, _⟩ => ⟨S20x20, .f32⟩
  | .hbm, ⟨2, _⟩ => ⟨S20x20, .f32⟩
  | .hbm, ⟨3, _⟩ => ⟨S20x20, .f32⟩
  | .hbm, ⟨4, _⟩ => ⟨S20x20, .f32⟩
  | .hbm, ⟨5, _⟩ => ⟨S20x20, .f32⟩
  | .hbm, ⟨6, _⟩ => ⟨S20x20, .f32⟩
  | .hbm, ⟨7, _⟩ => ⟨S5x5, .i32⟩
  | .hbm, ⟨8, _⟩ => ⟨S5x5, .i32⟩
  | .hbm, ⟨9, _⟩ => ⟨S_, .i32⟩
  | .hbm, ⟨10, _⟩ => ⟨S5x5, .i32⟩
  | .hbm, ⟨11, _⟩ => ⟨S5x5, .i32⟩
  | .hbm, ⟨12, _⟩ => ⟨S5x5, .i1⟩
  | .hbm, ⟨13, _⟩ => ⟨S5x5, .f32⟩
  | .hbm, ⟨14, _⟩ => ⟨S5x1x5x1, .f32⟩
  | .hbm, ⟨15, _⟩ => ⟨S1x20x1x20, .f32⟩
  | .hbm, ⟨16, _⟩ => ⟨S5x20x5x20, .f32⟩
  | .hbm, ⟨17, _⟩ => ⟨S5x20x5x20, .f32⟩
  | .hbm, ⟨18, _⟩ => ⟨S5x20x5x20, .f32⟩
  | .hbm, ⟨19, _⟩ => ⟨S100x100, .f32⟩
  | .hbm, ⟨20, _⟩ => ⟨S400000x100, .f32⟩
  | .hbm, ⟨21, _⟩ => ⟨S400000x100, .f32⟩
  | .hbm, ⟨22, _⟩ => ⟨S2000000x20, .f32⟩
  | .local _ .vmem, ⟨0, _⟩ => ⟨S10000x100, .f32⟩
  | .local _ .vmem, ⟨1, _⟩ => ⟨S10000x100, .f32⟩
  | .local _ .vmem, ⟨2, _⟩ => ⟨S100x100, .f32⟩
  | .local _ .vmem, ⟨3, _⟩ => ⟨S10000x100, .f32⟩
  | .local _ .vmem, ⟨4, _⟩ => ⟨S10000x100, .f32⟩
  | _, _ => ⟨S2000000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S5x5 : S_.BroadcastsInDim S5x5 (![] : Fin 0 → Fin S5x5.rank)
  bcast_S5x5_S5x1x5x1_0_2 : S5x5.BroadcastsInDim S5x1x5x1 (![0, 2] : Fin 2 → Fin S5x1x5x1.rank)
  bcast_S20x20_S1x20x1x20_1_3 : S20x20.BroadcastsInDim S1x20x1x20 (![1, 3] : Fin 2 → Fin S1x20x1x20.rank)
  bcast_S5x1x5x1_S5x20x5x20_0_1_2_3 : S5x1x5x1.BroadcastsInDim S5x20x5x20 (![0, 1, 2, 3] : Fin 4 → Fin S5x20x5x20.rank)
  bcast_S1x20x1x20_S5x20x5x20_0_1_2_3 : S1x20x1x20.BroadcastsInDim S5x20x5x20 (![0, 1, 2, 3] : Fin 4 → Fin S5x20x5x20.rank)
  shapeCasts_S5x20x5x20_S100x100 : S5x20x5x20.ShapeCasts S100x100
  shapeCasts_S2000000x20_S400000x100 : S2000000x20.ShapeCasts S400000x100
  inb_S100x100_S100x100_0_0 : ∀ a, (![0, 0] : Fin 2 → Nat) a + S100x100.size a ≤ S100x100.size a
  h_S100x100 : 0 < S100x100.numel
  shapeCasts_S100x100_S100x100 : S100x100.ShapeCasts S100x100
  bitsLt_bf16_f32 : FTy.bits .bf16 < FTy.bits .f32
  inb_S10000x100_S10000x100_0_0 : ∀ a, (![0, 0] : Fin 2 → Nat) a + S10000x100.size a ≤ S10000x100.size a
  h_S10000x100 : 0 < S10000x100.numel
  shapeCasts_S10000x100_S10000x100 : S10000x100.ShapeCasts S10000x100
  shapeCasts_S400000x100_S2000000x20 : S400000x100.ShapeCasts S2000000x20
  dot_S20x20_S20x20_S20x20_1_0_0_1_n_n_wf : DotDims.WF S20x20 S20x20 S20x20 [1] [0] [0] [1] [] []
  dot_S10000x100_S100x100_S10000x100_1_0_0_1_n_n_wf : DotDims.WF S10000x100 S100x100 S10000x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x100.size a ≤ S400000x100.size a
  hwx0_0 : ∀ i : grid0.Coords, EltTy.bits .f32 = 32 ∨ (Rect.block (s := S400000x100) S10000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .f32 = 32 ∨ (Rect.block (s := S100x100) S100x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x100.size a ≤ S400000x100.size a
  hwx0_2 : ∀ i : grid0.Coords, EltTy.bits .f32 = 32 ∨ (Rect.block (s := S400000x100) S10000x100.size (cc0_transform_2 i) (hinb0_2 i)).WholeWords (EltTy.packing .f32)

variable [Facts₀]

def dot_S20x20_S20x20_S20x20_1_0_0_1_n_n : DotDims S20x20 S20x20 S20x20 where
  lhsContracting := [1]
  rhsContracting := [0]
  lhsNonContracting := [0]
  rhsNonContracting := [1]
  lhsBatch := []
  rhsBatch := []
  wf := dot_S20x20_S20x20_S20x20_1_0_0_1_n_n_wf
def dot_S10000x100_S100x100_S10000x100_1_0_0_1_n_n : DotDims S10000x100 S100x100 S10000x100 where
  lhsContracting := [1]
  rhsContracting := [0]
  lhsNonContracting := [0]
  rhsNonContracting := [1]
  lhsBatch := []
  rhsBatch := []
  wf := dot_S10000x100_S100x100_S10000x100_1_0_0_1_n_n_wf

abbrev win0_0 : Pipeline.Window sig grid0 :=
  Pipeline.Window.ofSpec (Memref.whole main_v8) S10000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x20 : Shape := ⟨2, ![2000000, 20]⟩
abbrev S20x20 : Shape := ⟨2, ![20, 20]⟩

abbrev nBuf : Space → Nat
  | .hbm => 13
  | .vmem => 0
  | .smem => 0
  | _ => 0

abbrev bufTy : (tb : Table) → Fin (tcTables nBuf tb) → BufTy
  | .hbm, ⟨0, _⟩ => ⟨S2000000x20, .f32⟩
  | .hbm, ⟨1, _⟩ => ⟨S20x20, .f32⟩
  | .hbm, ⟨2, _⟩ => ⟨S2000000x20, .f32⟩
  | .hbm, ⟨3, _⟩ => ⟨S2000000x20, .f32⟩
  | .hbm, ⟨4, _⟩ => ⟨S2000000x20, .f32⟩
  | .hbm, ⟨5, _⟩ => ⟨S2000000x20, .f32⟩
  | .hbm, ⟨6, _⟩ => ⟨S2000000x20, .f32⟩
  | .hbm, ⟨7, _⟩ => ⟨S2000000x20, .f32⟩
  | .hbm, ⟨8, _⟩ => ⟨S2000000x20, .f32⟩
  | .hbm, ⟨9, _⟩ => ⟨S2000000x20, .f32⟩
  | .hbm, ⟨10, _⟩ => ⟨S2000000x20, .f32⟩
  | .hbm, ⟨11, _⟩ => ⟨S2000000x20, .f32⟩
  | .hbm, ⟨12, _⟩ => ⟨S2000000x20, .f32⟩
  | _, _ => ⟨S2000000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]

class Facts₀ : Prop where
  dot_S2000000x20_S20x20_S2000000x20_1_0_0_1_n_n_wf : DotDims.WF S2000000x20 S20x20 S2000000x20 [1] [0] [0] [1] [] []

variable [Facts₀]

def dot_S2000000x20_S20x20_S2000000x20_1_0_0_1_n_n : DotDims S2000000x20 S20x20 S2000000x20 where
  lhsContracting := [1]
  rhsContracting := [0]
  lhsNonContracting := [0]
  rhsNonContracting := [1]
  lhsBatch := []
  rhsBatch := []
  wf := dot_S2000000x20_S20x20_S2000000x20_1_0_0_1_n_n_wf

class Facts : Prop extends Facts₀ where

variable [Facts]
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.Body.lean ====
/-
  What the kernel body computes on one block, entry by entry.

  The body loads a block of 10000 packed rows (100 columns) and the 100-by-100 weight, narrows both to bf16, multiplies
  them on the matrix unit into a zero accumulator, and stores the product. In exact arithmetic the narrowing is the
  identity and the accumulator contributes nothing, so entry (p, q) of the stored block is the plain sum over the 100
  inner positions a of  rows (p, a) * weight (a, q).
-/
import proofs.«121307_j39676907887843_2_alg».proof.Proof.Gen.KernelIdeal.Skeleton
import proofs.«121307_j39676907887843_2_alg».proof.Proof.LibPlainDot
import Idealize.ShloMosaic.Lib.Pipeline.Value
import Idealize.ShloMosaic.Lib.ValueIdx

noncomputable section

open scoped BigOperators

namespace Cert.PowerChain

open Idealize.ShloMosaic Idealize.ShloMosaic.ValueIdx Cert.KernelIdeal Cert.KernelIdeal.Gen

/-- The matrix unit's product has the plain dimension numbers: the left factor is read at (row of the output, inner
    position), the right factor at (inner position, column of the output). -/
theorem blockDot_lhs0 (i : S10000x100.Idx) (q : dot_S10000x100_S100x100_S10000x100_1_0_0_1_n_n.contr.Idx) :
    (dot_S10000x100_S100x100_S10000x100_1_0_0_1_n_n.lhsIdx i q 0).val = (i 0).val := by
  unfold DotDims.lhsIdx
  rw [dif_neg (show ¬(0 : Fin S10000x100.rank) ∈ dot_S10000x100_S100x100_S10000x100_1_0_0_1_n_n.lhsBatch by decide),
    dif_pos (show (0 : Fin S10000x100.rank) ∈ dot_S10000x100_S100x100_S10000x100_1_0_0_1_n_n.lhsNonContracting by decide)]
  rfl
theorem blockDot_lhs1 (i : S10000x100.Idx) (q : dot_S10000x100_S100x100_S10000x100_1_0_0_1_n_n.contr.Idx) :
    (dot_S10000x100_S100x100_S10000x100_1_0_0_1_n_n.lhsIdx i q 1).val = (q ⟨0, by decide⟩).val :=
  dot_S10000x100_S100x100_S10000x100_1_0_0_1_n_n.lhsIdx_val_of_single rfl i q
theorem blockDot_rhs0 (i : S10000x100.Idx) (q : dot_S10000x100_S100x100_S10000x100_1_0_0_1_n_n.contr.Idx) :
    (dot_S10000x100_S100x100_S10000x100_1_0_0_1_n_n.rhsIdx i q 0).val = (q ⟨0, by decide⟩).val :=
  dot_S10000x100_S100x100_S10000x100_1_0_0_1_n_n.rhsIdx_val_of_single rfl i q
theorem blockDot_rhs1 (i : S10000x100.Idx) (q : dot_S10000x100_S100x100_S10000x100_1_0_0_1_n_n.contr.Idx) :
    (dot_S10000x100_S100x100_S10000x100_1_0_0_1_n_n.rhsIdx i q 1).val = (i 1).val := by
  unfold DotDims.rhsIdx
  rw [dif_neg (show ¬(1 : Fin S100x100.rank) ∈ dot_S10000x100_S100x100_S10000x100_1_0_0_1_n_n.rhsBatch by decide),
    dif_pos (show (1 : Fin S100x100.rank) ∈ dot_S10000x100_S100x100_S10000x100_1_0_0_1_n_n.rhsNonContracting by decide)]
  rfl

/-- Entry (p, q) of the block the body stores: the sum over the inner position of rows times weight. -/
theorem stored_block_entry (wt : Vec Ideal S100x100 .f32) (rows : Vec Ideal S10000x100 .f32) (p : Fin 10000) (q : Fin 100) :
    k0_pay1 (F := Ideal) wt rows (ix2 p q) = ∑ a : Fin 100, rows (ix2 p a) * wt (ix2 a q) := by
  unfold k0_pay1
  rw [shapeCast_self, shapeCast_self]
  exact Cert.LibPlainDot.matmul_zero_plain dot_S10000x100_S100x100_S10000x100_1_0_0_1_n_n rfl rfl
    blockDot_lhs0 blockDot_lhs1 blockDot_rhs0 blockDot_rhs1 none _ _ p q

end Cert.PowerChain

end
-- ==== Proof.Spec.lean ====
/-
  The common result of the two programs, as one function of the two argument arrays.

  Both programs compute, for a tall matrix x (2000000 rows, 20 columns) and a square matrix w (20 by 20), the
  product of x with the eleventh power of w. One program multiplies x by w eleven times, from the left:
      ((((x w) w) ...) w).
  The other first forms the eleventh power of w by repeated squaring,
      w2 = w w,  w3 = w w2,  w4 = w2 w2,  w8 = w4 w4,  w11 = w3 w8,
  and multiplies x by it once. On the extended reals a matrix product is the finite sum of the entrywise
  products; that sum needs no finiteness to be written down, only to be regrouped. The second form is taken as
  the common result here; that the first equals it is associativity of the matrix product, which holds when every
  entry is a real number.

  Arrays of rank two are read through their two coordinates: `cur` turns an array into a function of the row and
  the column, `unc` turns such a function back into an array.
-/
import Idealize.ShloMosaic.Lib.ValueIdx

noncomputable section

open scoped BigOperators

namespace Cert.PowerChain

open Idealize.ShloMosaic Idealize.ShloMosaic.ValueIdx

/-- A rank-two array as a function of its row and its column. -/
def cur {R C : Nat} (x : (⟨2, ![R, C]⟩ : Shape).Idx → EReal) : Fin R → Fin C → EReal :=
  fun p c => x (ix2 p c)

/-- A function of a row and a column as a rank-two array. -/
def unc {R C : Nat} (f : Fin R → Fin C → EReal) : (⟨2, ![R, C]⟩ : Shape).Idx → EReal :=
  fun i => f ⟨(i 0).val, idx2_lt0 i⟩ ⟨(i 1).val, idx2_lt1 i⟩

theorem unc_ix2 {R C : Nat} (f : Fin R → Fin C → EReal) (p : Fin R) (c : Fin C) : unc f (ix2 p c) = f p c := rfl

theorem cur_apply {R C : Nat} (x : (⟨2, ![R, C]⟩ : Shape).Idx → EReal) (p : Fin R) (c : Fin C) :
    cur x p c = x (ix2 p c) := rfl

theorem unc_cur {R C : Nat} (x : (⟨2, ![R, C]⟩ : Shape).Idx → EReal) : unc (cur x) = x := by
  funext i
  obtain ⟨p, c, rfl⟩ : ∃ (p : Fin R) (c : Fin C), i = ix2 p c := ⟨i 0, i 1, eq_ix2 i⟩
  rfl

/-- The product of two matrices of extended reals: entry (p, c) is the sum over a of l p a * r a c. -/
def mm {R K C : Nat} (l : Fin R → Fin K → EReal) (r : Fin K → Fin C → EReal) : Fin R → Fin C → EReal :=
  fun p c => ∑ a : Fin K, l p a * r a c

theorem mm_apply {R K C : Nat} (l : Fin R → Fin K → EReal) (r : Fin K → Fin C → EReal) (p : Fin R) (c : Fin C) :
    mm l r p c = ∑ a : Fin K, l p a * r a c := rfl

/-- The eleventh power of a square matrix, grouped as repeated squaring groups it:
    (w (w w)) (((w w) (w w)) ((w w) (w w))). -/
def pw {n : Nat} (w : Fin n → Fin n → EReal) : Fin n → Fin n → EReal :=
  mm (mm w (mm w w)) (mm (mm (mm w w) (mm w w)) (mm (mm w w) (mm w w)))

/-- Eleven products by w, one after the other, from the left. -/
def chain {R n : Nat} (x : Fin R → Fin n → EReal) (w : Fin n → Fin n → EReal) : Fin R → Fin n → EReal :=
  mm (mm (mm (mm (mm (mm (mm (mm (mm (mm (mm x w) w) w) w) w) w) w) w) w) w) w

/-- The common result: x times the eleventh power of w, as an array. -/
def result (x : (⟨2, ![2000000, 20]⟩ : Shape).Idx → EReal) (w : (⟨2, ![20, 20]⟩ : Shape).Idx → EReal) :
    (⟨2, ![2000000, 20]⟩ : Shape).Idx → EReal :=
  unc (mm (cur x) (pw (cur w)))

end Cert.PowerChain

end
-- ==== Proof.Blocks.lean ====
/-
  From the blocks the kernel writes back to the whole packed product.

  The region runs the body at 40 grid points. At point t it reads rows 10000 t … 10000 t + 9999 of the packed rows
  (400000 rows of 100 columns) and the whole 100-by-100 weight, and writes back the same rows of the output array.
  What it writes is, entry by entry, the product of the packed rows with the weight (the body's arithmetic, read in
  exact arithmetic). The 40 row bands tile the output array, so after the region the output array is that product
  everywhere.
-/
import proofs.«121307_j39676907887843_2_alg».proof.Proof.Gen.KernelIdeal.Frame
import proofs.«121307_j39676907887843_2_alg».proof.Proof.Body
import proofs.«121307_j39676907887843_2_alg».proof.Proof.Spec
import Idealize.ShloMosaic.Lib.Pipeline.Value

noncomputable section

open scoped BigOperators

namespace Cert.PowerChain

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- Which block each window is on at grid point t: the packed rows and the output move down one band of rows per
    point, the weight stays. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of the packed rows with the block weight, both as the region finds them. -/
def packedProduct (c : Dev nD) : S400000x100.Idx → EReal :=
  unc (mm (cur (V m c main_v8 : S400000x100.Idx → EReal)) (cur (V m c main_v7 : S100x100.Idx → EReal)))

theorem row_in_band (t : Fin cfg0.N) (p : Fin 10000) : t.val * 10000 + p.val < 400000 := by
  have hN : cfg0.N = 40 := N_0
  have := t.isLt
  omega

/-- The block of packed rows at point t is the band of rows starting at 10000 t. -/
theorem rows_block_entry (c : Dev nD) (t : Fin cfg0.N) (p : Fin 10000) (a : Fin 100) :
    (iblk m c 0 t : Vec Ideal S10000x100 .f32) (ix2 p a)
      = (V m c main_v8 : S400000x100.Idx → EReal) (ix2 (⟨t.val * 10000 + p.val, row_in_band t p⟩ : Fin 400000) a) := by
  obtain ⟨e0, e1, -, -, -, -⟩ := block_indices t
  unfold iblk
  rw [View.read_apply]
  show V m c main_v8 _ = V m c main_v8 _
  refine congrArg (V m c main_v8) (funext fun d => Fin.ext ?_)
  match d with
  | ⟨0, _⟩ => show win0_0.index t (0 : Fin 2) * 10000 + 1 * p.val = t.val * 10000 + p.val; rw [e0]; omega
  | ⟨1, _⟩ => show win0_0.index t (1 : Fin 2) * 100 + 1 * a.val = a.val; rw [e1]; omega

/-- The weight's block at every point is the whole weight. -/
theorem weight_block_entry (c : Dev nD) (t : Fin cfg0.N) (a q : Fin 100) :
    (iblk m c 1 t : Vec Ideal S100x100 .f32) (ix2 a q) = (V m c main_v7 : S100x100.Idx → EReal) (ix2 a q) := by
  obtain ⟨-, -, e2, e3, -, -⟩ := block_indices t
  unfold iblk
  rw [View.read_apply]
  show V m c main_v7 _ = V m c main_v7 _
  refine congrArg (V m c main_v7) (funext fun d => Fin.ext ?_)
  match d with
  | ⟨0, _⟩ => show win0_1.index t (0 : Fin 2) * 100 + 1 * a.val = a.val; rw [e2]; omega
  | ⟨1, _⟩ => show win0_1.index t (1 : Fin 2) * 100 + 1 * q.val = q.val; rw [e3]; omega

/-- What point t writes back is the band of the packed product it stands on. -/
theorem written_back (c : Dev nD) (t : Fin cfg0.N) :
    (dats m 0 c).flushed 2 t = ((cfg0.win 2).blk t).view.read (Elt Ideal) (packedProduct m c) := by
  show (cfg0.win 2).cut (grid0.coords t) ((dats m 0 c).after 2 t) = _
  rw [after0_2]
  unfold out0_2
  rw [View.canon_unit_zero offsets_zero]
  simp only [View.ld_unit_zero (S := S10000x100) offsets_zero, View.ld_unit_zero (S := S100x100) offsets_zero]
  obtain ⟨-, -, -, -, e4, e5⟩ := block_indices t
  funext j
  obtain ⟨p, q, rfl⟩ : ∃ (p : Fin 10000) (q : Fin 100), j = ix2 p q := ⟨j 0, j 1, eq_ix2 j⟩
  show k0_pay1 (F := Ideal) (iblk m c 1 t) (iblk m c 0 t) (ix2 p q) = packedProduct m c (((cfg0.win 2).blk t).view.emb (ix2 p q))
  have hemb : ((cfg0.win 2).blk t).view.emb (ix2 p q) = ix2 (⟨t.val * 10000 + p.val, row_in_band t p⟩ : Fin 400000) q :=
    funext fun d => Fin.ext (by
      match d with
      | ⟨0, _⟩ => show win0_2.index t (0 : Fin 2) * 10000 + 1 * p.val = t.val * 10000 + p.val; rw [e4]; omega
      | ⟨1, _⟩ => show win0_2.index t (1 : Fin 2) * 100 + 1 * q.val = q.val; rw [e5]; omega)
  rw [hemb]
  refine (stored_block_entry (iblk m c 1 t) (iblk m c 0 t) p q).trans ?_
  unfold packedProduct
  rw [unc_ix2, mm_apply]
  refine Finset.sum_congr rfl fun a _ => ?_
  rw [rows_block_entry m c t p a, weight_block_entry m c t a q]
  rfl

/-- An index of the output array is in point t's band iff each coordinate is in the band's range on its axis. -/
theorem mem_band (t : Fin cfg0.N) (i : S400000x100.Idx) :
    i ∈ ((cfg0.win 2).blk t).view.set ↔ ∀ a : Fin 2, win0_2.index t a * S10000x100.size a ≤ (i a).val
      ∧ (i a).val < win0_2.index t a * S10000x100.size a + S10000x100.size a := by
  show i ∈ ((View.whole main_v9).slice (win0_2.rect t)).set ↔ _
  rw [View.set_slice_whole, Rect.mem_set_unit]
  exact Iff.rfl

/-- Every entry of the output array lies in the band of the point  row / 10000. -/
theorem covered (i : S400000x100.Idx) :
    ∃ t : Fin cfg0.N, (cfg0.win 2).flush t = true ∧ i ∈ ((cfg0.win 2).blk t).view.set := by
  have hN : cfg0.N = 40 := N_0
  have hi0 : (i 0).val < 400000 := (i 0).isLt
  have hi1 : (i 1).val < 100 := (i 1).isLt
  have ht : (i 0).val / 10000 < cfg0.N := by rw [hN]; omega
  obtain ⟨-, -, -, -, e4, e5⟩ := block_indices ⟨(i 0).val / 10000, ht⟩
  refine ⟨⟨(i 0).val / 10000, ht⟩, flush0_2 _, ?_⟩
  rw [mem_band]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 100 ≤ (i 1).val
      ∧ (i 1).val < win0_2.index ⟨(i 0).val / 10000, ht⟩ (1 : Fin 2) * 100 + 100
    rw [e5]
    omega

/-- After the region the output array holds the packed product. -/
theorem output_array (c : Dev nD) : (dats m 0 c).arrAt 2 cfg0.N = packedProduct m c :=
  (dats m 0 c).arrAt_eq_of_cover 2 (packedProduct m c) (fun t _ => written_back m c t) covered

end Cert.PowerChain

end
-- ==== Proof.Tail.lean ====
/-
  The result array: the packed product laid back out as rows of 20.

  After the region the program reshapes the output array (400000 rows of 100) to 2000000 rows of 20. A reshape keeps the
  row-major position of every entry: entry (r, q) of the result sits at position 20 r + q, which in the packed layout is
  row r / 5, column 20 (r mod 5) + q.
-/
import proofs.«121307_j39676907887843_2_alg».proof.Proof.Blocks
import Idealize.ShloMosaic.Lib.StableHlo.Run

noncomputable section

open scoped BigOperators

namespace Cert.PowerChain

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-- The result array after the whole program is the reshape of the output array the region leaves. -/
theorem result_array (c : Dev nD) :
    (Pipeline.afterTail₀ cfgs (dats m) 0 (V0 m) [hostOps1] c main_v10 : S2000000x20.Idx → EReal)
      = shapeCast S2000000x20 (packedProduct m c) shapeCasts_S400000x100_S2000000x20 := by
  unfold Pipeline.afterTail₀
  show StableHlo.after hostOps1 _ (Proc.devRef .tc main_v10) = _
  after_results
  rw [Pipeline.withArrays_arr spec0 launch0.win.arr_inj c _ _ 2, output_array]
  rfl

/-- Entry (r, q) of the result is entry (r / 5, 20 (r mod 5) + q) of the packed product. -/
theorem result_array_entry (c : Dev nD) (r : Fin 2000000) (q : Fin 20) :
    (Pipeline.afterTail₀ cfgs (dats m) 0 (V0 m) [hostOps1] c main_v10 : S2000000x20.Idx → EReal) (ix2 r q)
      = packedProduct m c (ix2 (⟨r.val / 5, by have := r.isLt; omega⟩ : Fin 400000)
          (⟨20 * (r.val % 5) + q.val, by have := q.isLt; omega⟩ : Fin 100)) := by
  rw [result_array]
  refine shapeCast_apply _ _ _ _ ?_
  rw [Shape.rowMajor_val_two, Shape.rowMajor_val_two]
  show r.val / 5 * 100 + (20 * (r.val % 5) + q.val) = r.val * 20 + q.val
  omega

end Cert.PowerChain

end
-- ==== Proof.LibBlockSums.lean ====
/-
  A sum over a long axis taken block by block, as a running sum.

  Three facts in any commutative additive monoid (so in particular on the extended reals, where nothing beyond
  commutativity and associativity of + is used), and two float literals at exact arithmetic.

  * A sum over `Fin (A * B)` is the sum over the `A` blocks of the `B` block sums (`sum_blocks`).
  * The left-nested running sum `((z + s 0) + s 1) + … + s n` is `z` plus the sum of `s` over `0 … n` (`runSum_eq`).
  * Dividing by the literal 0.5 is multiplying by the literal 2.0, on every extended real (`div_half`).
-/
import Idealize.ShloMosaic.PureOps.Ideal.Laws

noncomputable section

open scoped BigOperators

namespace Cert.LibBlockSums

open Idealize.ShloMosaic

/-- A sum over `A * B` consecutive indices, block by block. -/
theorem sum_blocks {M : Type*} [AddCommMonoid M] (A B : Nat) (f : Fin (A * B) → M) :
    ∑ j, f j = ∑ a : Fin A, ∑ b : Fin B, f ⟨a.val * B + b.val, by
      have ha := a.isLt; have hb := b.isLt
      calc a.val * B + b.val < a.val * B + B := by omega
        _ = (a.val + 1) * B := by ring
        _ ≤ A * B := Nat.mul_le_mul_right B ha⟩ := by
  rw [← Equiv.sum_comp (finProdFinEquiv (m := A) (n := B)) f, Fintype.sum_prod_type]
  refine Finset.sum_congr rfl fun a _ => Finset.sum_congr rfl fun b _ => congrArg f (Fin.ext ?_)
  simp only [finProdFinEquiv_apply_val]
  rw [Nat.mul_comm]; omega

/-- The left-nested running sum of `s` started from `z`. -/
def runSum {M : Type*} [Add M] (z : M) (s : Nat → M) : Nat → M
  | 0 => z + s 0
  | n + 1 => runSum z s n + s (n + 1)

theorem runSum_eq {M : Type*} [AddCommMonoid M] (z : M) (s : Nat → M) (n : Nat) :
    runSum z s n = z + ∑ j ∈ Finset.range (n + 1), s j := by
  induction n with
  | zero => simp [runSum]
  | succ n ih => rw [runSum, ih, Finset.sum_range_succ _ (n + 1), add_assoc]

/-- Started from zero and run over all `A` blocks it is the sum over the blocks. -/
theorem runSum_zero_last {M : Type*} [AddCommMonoid M] (A : Nat) (s : Nat → M) :
    runSum 0 s A = ∑ a : Fin (A + 1), s a.val := by
  rw [runSum_eq, zero_add, Finset.sum_range]

/-- The float literal 2.0. -/
theorem ofBits_two : Ideal.ofBits .f32 0x40000000#32 = ((2 : ℝ) : EReal) := by
  simp [Ideal.ofBits, Ideal.ieee, -EReal.coe_mul]; norm_num

/-- The float literal 0.5. -/
theorem ofBits_half : Ideal.ofBits .f32 0x3F000000#32 = ((1 / 2 : ℝ) : EReal) := by
  simp [Ideal.ofBits, Ideal.ieee, -EReal.coe_mul]; norm_num

/-- On every extended real, the quotient by 0.5 is the product with 2.0. -/
theorem div_half (x : EReal) :
    Ideal.div x (Ideal.ofBits .f32 0x3F000000#32) = x * Ideal.ofBits .f32 0x40000000#32 := by
  rw [ofBits_half, ofBits_two, Ideal.div_coe (by norm_num : (1 / 2 : ℝ) ≠ 0)]
  norm_num

end Cert.LibBlockSums

end
-- ==== Proof.Collapse.lean ====
/-
  Packing five rows side by side against a block-diagonal weight changes nothing.

  Let x have rows of 20 entries and let W be 20 by 20. Pack five consecutive rows of x into one row of 100 entries
  (position a of the packed row P holds entry a mod 20 of row 5 P + a / 20), and let the 100-by-100 weight hold, at
  (a, J), the entry (a mod 20, J mod 20) of W when a and J lie in the same block of 20 and zero times that entry
  otherwise. Then entry 20 (r mod 5) + q of the packed row r / 5 of the product is entry q of row r of x W.

  The sum over the 100 inner positions is taken as five blocks of 20. In four of the blocks every term has the factor
  0, and on the extended reals 0 * y = 0 and y * 0 = 0 for every y, the infinities included; in the remaining block the
  factor is 1 and the terms are those of the plain product. Nothing is distributed or cancelled, so no entry needs to
  be finite.
-/
import proofs.«121307_j39676907887843_2_alg».proof.Proof.Spec
import proofs.«121307_j39676907887843_2_alg».proof.Proof.LibBlockSums

noncomputable section

open scoped BigOperators

namespace Cert.PowerChain

/-- A sum over 100 positions as five block sums of 20. -/
theorem sum_five_blocks {M : Type*} [AddCommMonoid M] (f : Fin 100 → M) :
    ∑ j, f j = ∑ s : Fin 5, ∑ k : Fin 20, f ⟨s.val * 20 + k.val, by have := s.isLt; have := k.isLt; omega⟩ :=
  Cert.LibBlockSums.sum_blocks 5 20 f

theorem packed_collapse (x : Fin 2000000 → Fin 20 → EReal) (W : Fin 20 → Fin 20 → EReal)
    (rows : Fin 400000 → Fin 100 → EReal) (wt : Fin 100 → Fin 100 → EReal)
    (hrows : ∀ (P : Fin 400000) (a : Fin 100),
      rows P a = x ⟨5 * P.val + a.val / 20, by have := P.isLt; have := a.isLt; omega⟩ ⟨a.val % 20, Nat.mod_lt _ (by decide)⟩)
    (hwt : ∀ a J : Fin 100, wt a J = (if a.val / 20 = J.val / 20 then (1 : EReal) else 0)
      * W ⟨a.val % 20, Nat.mod_lt _ (by decide)⟩ ⟨J.val % 20, Nat.mod_lt _ (by decide)⟩)
    (r : Fin 2000000) (q : Fin 20) :
    mm rows wt ⟨r.val / 5, by have := r.isLt; omega⟩ ⟨20 * (r.val % 5) + q.val, by have := q.isLt; omega⟩ = mm x W r q := by
  have hr := r.isLt
  have hq := q.isLt
  rw [mm_apply, mm_apply, sum_five_blocks,
    Finset.sum_eq_single (⟨r.val % 5, Nat.mod_lt _ (by decide)⟩ : Fin 5)]
  · refine Finset.sum_congr rfl fun k _ => ?_
    have hk := k.isLt
    refine (congrArg₂ (· * ·) (hrows _ _) (hwt _ _)).trans ?_
    dsimp only
    rw [if_pos (show (r.val % 5 * 20 + k.val) / 20 = (20 * (r.val % 5) + q.val) / 20 by omega), one_mul]
    exact congrArg₂ (· * ·)
      (congrArg₂ x (Fin.ext (show 5 * (r.val / 5) + (r.val % 5 * 20 + k.val) / 20 = r.val by omega))
        (Fin.ext (show (r.val % 5 * 20 + k.val) % 20 = k.val by omega)))
      (congrArg₂ W (Fin.ext (show (r.val % 5 * 20 + k.val) % 20 = k.val by omega))
        (Fin.ext (show (20 * (r.val % 5) + q.val) % 20 = q.val by omega)))
  · intro s _ hs
    have hs5 := s.isLt
    have hne : s.val ≠ r.val % 5 := fun h => hs (Fin.ext h)
    refine Finset.sum_eq_zero fun k _ => ?_
    have hk := k.isLt
    rw [hwt]
    dsimp only
    rw [if_neg (show ¬ (s.val * 20 + k.val) / 20 = (20 * (r.val % 5) + q.val) / 20 by omega), zero_mul, mul_zero]
  · intro h
    exact absurd (Finset.mem_univ _) h

end Cert.PowerChain

end
-- ==== Proof.LibPlainHostDot.lean ====
/-
  The host's matrix product with plain dimension numbers, read at an entry in exact arithmetic.

  A `stablehlo.dot_general` of a rows-by-`K` matrix with a `K`-by-columns matrix (one contracted axis, nothing
  batched) is, at the entry `(p, c)`, the sum over the contracted coordinate `a` of the left factor at `(p, a)`
  times the right factor at `(a, c)`. On the extended reals this is a plain finite sum: no accumulator is added
  and nothing is cancelled, so no finiteness of the entries is needed.
-/
import Idealize.ShloMosaic.PureOps.Ideal.Laws
import Idealize.ShloMosaic.Lib.ValueIdx

noncomputable section

open scoped BigOperators

namespace Cert.LibPlainHostDot

open Idealize.ShloMosaic Idealize.ShloMosaic.ValueIdx

/-- A plain `R × K` by `K × C` host product read at `(p, c)` in exact arithmetic: `∑ a, l (p, a) * r (a, c)`.
    The hypotheses `hl0 … hr1` say the dimension numbers are the plain ones: the left factor's index takes its row
    from the output index and its column from the contraction index, the right factor's its row from the
    contraction index and its column from the output index. -/
theorem hostDot_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    Host.dotGeneral D prec l r (ix2 p c) = ∑ a : Fin K, l (ix2 p a) * r (ix2 a c) := by
  show FloatOps.dotGeneral D prec .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainHostDot

end
-- ==== Proof.PowerReads.lean ====
/-
  The weight's eleventh power, as the five host products form it, read at an entry.

  Repeated squaring forms w2 = w w, w3 = w w2, w4 = w2 w2, w8 = w4 w4 and then w3 w8. Each product is a plain
  matrix product of two 20-by-20 matrices: its entry (p, q) is the sum over a of the left factor at (p, a) times the
  right factor at (a, q). Composing the five gives the grouping that the common result names.
-/
import proofs.«121307_j39676907887843_2_alg».proof.Proof.Gen.KernelIdeal
import proofs.«121307_j39676907887843_2_alg».proof.Proof.Spec
import proofs.«121307_j39676907887843_2_alg».proof.Proof.LibPlainHostDot

noncomputable section

open scoped BigOperators

namespace Cert.PowerChain

open Idealize.ShloMosaic Idealize.ShloMosaic.ValueIdx Cert.KernelIdeal Cert.KernelIdeal.Gen

/-- Reading an array made from a function of the row and the column gives the function back. -/
theorem cur_unc {R C : Nat} (f : Fin R → Fin C → EReal) : cur (unc f) = f := rfl

/-- The left factor's index takes its row from the output index … -/
theorem dot20_l0 (i : S20x20.Idx) (q : dot_S20x20_S20x20_S20x20_1_0_0_1_n_n.contr.Idx) :
    (dot_S20x20_S20x20_S20x20_1_0_0_1_n_n.lhsIdx i q 0).val = (i 0).val := by
  unfold DotDims.lhsIdx
  rw [dif_neg (show ¬(0 : Fin S20x20.rank) ∈ dot_S20x20_S20x20_S20x20_1_0_0_1_n_n.lhsBatch by decide),
    dif_pos (show (0 : Fin S20x20.rank) ∈ dot_S20x20_S20x20_S20x20_1_0_0_1_n_n.lhsNonContracting by decide)]
  rfl
/-- … and its column from the contraction index; -/
theorem dot20_l1 (i : S20x20.Idx) (q : dot_S20x20_S20x20_S20x20_1_0_0_1_n_n.contr.Idx) :
    (dot_S20x20_S20x20_S20x20_1_0_0_1_n_n.lhsIdx i q 1).val = (q ⟨0, by decide⟩).val :=
  dot_S20x20_S20x20_S20x20_1_0_0_1_n_n.lhsIdx_val_of_single rfl i q
/-- the right factor's index takes its row from the contraction index … -/
theorem dot20_r0 (i : S20x20.Idx) (q : dot_S20x20_S20x20_S20x20_1_0_0_1_n_n.contr.Idx) :
    (dot_S20x20_S20x20_S20x20_1_0_0_1_n_n.rhsIdx i q 0).val = (q ⟨0, by decide⟩).val :=
  dot_S20x20_S20x20_S20x20_1_0_0_1_n_n.rhsIdx_val_of_single rfl i q
/-- … and its column from the output index. -/
theorem dot20_r1 (i : S20x20.Idx) (q : dot_S20x20_S20x20_S20x20_1_0_0_1_n_n.contr.Idx) :
    (dot_S20x20_S20x20_S20x20_1_0_0_1_n_n.rhsIdx i q 1).val = (i 1).val := by
  unfold DotDims.rhsIdx
  rw [dif_neg (show ¬(1 : Fin S20x20.rank) ∈ dot_S20x20_S20x20_S20x20_1_0_0_1_n_n.rhsBatch by decide),
    dif_pos (show (1 : Fin S20x20.rank) ∈ dot_S20x20_S20x20_S20x20_1_0_0_1_n_n.rhsNonContracting by decide)]
  rfl

/-- One host product of two 20-by-20 matrices is the matrix product of the two, as arrays. -/
theorem dot20_eq (l r : FVec Ideal S20x20 .f32) :
    Host.dotGeneral dot_S20x20_S20x20_S20x20_1_0_0_1_n_n none l r = unc (mm (cur l) (cur r)) := by
  funext i
  obtain ⟨p, q, rfl⟩ : ∃ (p : Fin 20) (q : Fin 20), i = ix2 p q := ⟨i 0, i 1, eq_ix2 i⟩
  exact Cert.LibPlainHostDot.hostDot_plain dot_S20x20_S20x20_S20x20_1_0_0_1_n_n rfl rfl dot20_l0 dot20_l1 dot20_r0 dot20_r1
    none l r p q

/-- The five host products, in the order the program runs them: w2, w3 = w w2, w4 = w2 w2, w8 = w4 w4, w3 w8. -/
def powTerm (w : FVec Ideal S20x20 .f32) : FVec Ideal S20x20 .f32 :=
  Host.dotGeneral dot_S20x20_S20x20_S20x20_1_0_0_1_n_n none
    (Host.dotGeneral dot_S20x20_S20x20_S20x20_1_0_0_1_n_n none w
      (Host.dotGeneral dot_S20x20_S20x20_S20x20_1_0_0_1_n_n none w w))
    (Host.dotGeneral dot_S20x20_S20x20_S20x20_1_0_0_1_n_n none
      (Host.dotGeneral dot_S20x20_S20x20_S20x20_1_0_0_1_n_n none
        (Host.dotGeneral dot_S20x20_S20x20_S20x20_1_0_0_1_n_n none w w)
        (Host.dotGeneral dot_S20x20_S20x20_S20x20_1_0_0_1_n_n none w w))
      (Host.dotGeneral dot_S20x20_S20x20_S20x20_1_0_0_1_n_n none
        (Host.dotGeneral dot_S20x20_S20x20_S20x20_1_0_0_1_n_n none w w)
        (Host.dotGeneral dot_S20x20_S20x20_S20x20_1_0_0_1_n_n none w w)))

/-- The five products compose to the eleventh power, grouped as the common result groups it. -/
theorem powTerm_eq (w : FVec Ideal S20x20 .f32) : powTerm w = unc (pw (cur w)) := by
  unfold powTerm pw
  simp only [dot20_eq, cur_unc]

/-- The power read at an entry. -/
theorem powTerm_apply (w : FVec Ideal S20x20 .f32) (p q : Fin 20) : powTerm w (ix2 p q) = pw (cur w) p q := by
  rw [powTerm_eq]; rfl

end Cert.PowerChain

end
-- ==== Proof.KronReads.lean ====
/-
  The block-diagonal weight, as the host forms it from the identity of size five and a 20-by-20 matrix, read at an
  entry.

  The identity is formed from two integer ramps: entry (s, t) is the word "s + 0 equals t", read as a number, so it is
  one on the diagonal and zero off it. The two factors are then spread over a common array of shape [5, 20, 5, 20]: the
  identity's entry (s, t) sits at every (s, k, t, q), the matrix's entry (k, q) at every (s, k, t, q); the two are
  multiplied entry by entry. Last the four axes are merged two by two: (s, k, t, q) becomes row 20 s + k and
  column 20 t + q. So entry (a, J) of the result is the identity at (a / 20, J / 20) times the matrix at
  (a mod 20, J mod 20).
-/
import proofs.«121307_j39676907887843_2_alg».proof.Proof.Gen.KernelIdeal
import Idealize.ShloMosaic.Lib.Pipeline.Value
import Idealize.ShloMosaic.Lib.IdealHost

noncomputable section

open scoped BigOperators

namespace Cert.PowerChain

open Idealize.ShloMosaic Idealize.ShloMosaic.ValueIdx Cert.KernelIdeal Cert.KernelIdeal.Gen

/-- The identity of size five, as the host's integer operations form it: the row ramp plus a zero, compared for
    equality with the column ramp, the bit read as a number. -/
def eyeTerm : FVec Ideal S5x5 .f32 :=
  uitofp .f32 (cmpi .eq (addi (iotaInDim S5x5 32 0) (broadcastInDim S5x5 ![] bcast_S_S5x5 (constantI S_ 32 0#32))) (iotaInDim S5x5 32 1))

/-- The comparison's bit: one exactly on the diagonal. -/
theorem eye_bit (s t : Fin 5) :
    IntOp.cmpi .eq (IntOp.addi (BitVec.ofNat 32 s.val) 0#32) (BitVec.ofNat 32 t.val) = if s = t then 1#1 else 0#1 := by
  fin_cases s <;> fin_cases t <;> decide

/-- The identity read at an entry: one on the diagonal, zero off it. -/
theorem eyeTerm_apply (s t : Fin 5) : eyeTerm (ix2 s t) = if s = t then (1 : EReal) else 0 := by
  show (((IntOp.cmpi .eq (IntOp.addi (BitVec.ofNat 32 s.val) 0#32) (BitVec.ofNat 32 t.val)).toNat : ℝ) : EReal) = _
  rw [eye_bit]
  by_cases h : s = t
  · rw [if_pos h, if_pos h]
    show (((1 : ℕ) : ℝ) : EReal) = 1
    rw [Nat.cast_one, EReal.coe_one]
  · rw [if_neg h, if_neg h]
    show (((0 : ℕ) : ℝ) : EReal) = 0
    rw [Nat.cast_zero, EReal.coe_zero]

/-- The two factors spread over [5, 20, 5, 20], multiplied entry by entry, and the axes merged two by two. -/
def kronTerm (e : FVec Ideal S5x5 .f32) (p : FVec Ideal S20x20 .f32) : FVec Ideal S100x100 .f32 :=
  shapeCast S100x100
    (mulf
      (broadcastInDim S5x20x5x20 ![0, 1, 2, 3] bcast_S5x1x5x1_S5x20x5x20_0_1_2_3
        (broadcastInDim S5x1x5x1 ![0, 2] bcast_S5x5_S5x1x5x1_0_2 e))
      (broadcastInDim S5x20x5x20 ![0, 1, 2, 3] bcast_S1x20x1x20_S5x20x5x20_0_1_2_3
        (broadcastInDim S1x20x1x20 ![1, 3] bcast_S20x20_S1x20x1x20_1_3 p)))
    shapeCasts_S5x20x5x20_S100x100

/-- The first factor spread: entry (s, k, t, q) is the factor's entry (s, t). -/
theorem spreadL_apply (e : FVec Ideal S5x5 .f32) (s : Fin 5) (k : Fin 20) (t : Fin 5) (q : Fin 20) :
    broadcastInDim S5x20x5x20 ![0, 1, 2, 3] bcast_S5x1x5x1_S5x20x5x20_0_1_2_3
        (broadcastInDim S5x1x5x1 ![0, 2] bcast_S5x5_S5x1x5x1_0_2 e) (ix4 s k t q) = e (ix2 s t) := by
  rw [broadcastInDim_apply _ _ _ (ix4 s k t q) (ix4 s (0 : Fin 1) t (0 : Fin 1)) (by intro a; fin_cases a <;> rfl)]
  exact broadcastInDim_apply _ _ _ (ix4 s (0 : Fin 1) t (0 : Fin 1)) (ix2 s t) (by intro a; fin_cases a <;> rfl)

/-- The second factor spread: entry (s, k, t, q) is the factor's entry (k, q). -/
theorem spreadR_apply (p : FVec Ideal S20x20 .f32) (s : Fin 5) (k : Fin 20) (t : Fin 5) (q : Fin 20) :
    broadcastInDim S5x20x5x20 ![0, 1, 2, 3] bcast_S1x20x1x20_S5x20x5x20_0_1_2_3
        (broadcastInDim S1x20x1x20 ![1, 3] bcast_S20x20_S1x20x1x20_1_3 p) (ix4 s k t q) = p (ix2 k q) := by
  rw [broadcastInDim_apply _ _ _ (ix4 s k t q) (ix4 (0 : Fin 1) k (0 : Fin 1) q) (by intro a; fin_cases a <;> rfl)]
  exact broadcastInDim_apply _ _ _ (ix4 (0 : Fin 1) k (0 : Fin 1) q) (ix2 k q) (by intro a; fin_cases a <;> rfl)

/-- The merged array read at (a, J): the first factor at (a / 20, J / 20) times the second at (a mod 20, J mod 20). -/
theorem kronTerm_apply (e : FVec Ideal S5x5 .f32) (p : FVec Ideal S20x20 .f32) (a J : Fin 100) :
    kronTerm e p (ix2 a J)
      = e (ix2 (⟨a.val / 20, by omega⟩ : Fin 5) (⟨J.val / 20, by omega⟩ : Fin 5))
          * p (ix2 (⟨a.val % 20, Nat.mod_lt _ (by decide)⟩ : Fin 20) (⟨J.val % 20, Nat.mod_lt _ (by decide)⟩ : Fin 20)) := by
  unfold kronTerm
  rw [shapeCast_apply _ _ (ix2 a J)
    (ix4 (⟨a.val / 20, by omega⟩ : Fin 5) (⟨a.val % 20, Nat.mod_lt _ (by decide)⟩ : Fin 20)
      (⟨J.val / 20, by omega⟩ : Fin 5) (⟨J.val % 20, Nat.mod_lt _ (by decide)⟩ : Fin 20))
    (by
      rw [Shape.rowMajor_val_four, Shape.rowMajor_val_two]
      show (((a.val / 20) * 20 + a.val % 20) * 5 + J.val / 20) * 20 + J.val % 20 = a.val * 100 + J.val
      omega)]
  rw [mulf_apply, spreadL_apply, spreadR_apply]

end Cert.PowerChain

end
-- ==== Proof.HostReads.lean ====
/-
  The two arrays the kernel's input windows are cut from, each read at an entry in terms of the program's arguments.

  Both are written by host operations before the kernel runs. The packed rows are a reshape of the tall argument:
  five consecutive rows of twenty laid side by side in one row of a hundred, so entry (P, a) is the argument's entry
  (5 P + a / 20, a mod 20). The block-diagonal weight is the identity of size five spread against the weight's
  eleventh power: entry (a, J) is the power's entry (a mod 20, J mod 20) when a and J lie in the same block of
  twenty, and zero times that entry otherwise.

  Each array is first named as the composed term of the operations that wrote it, applied to the arguments as the
  program was launched; the term is then read at an entry piece by piece.
-/
import proofs.«121307_j39676907887843_2_alg».proof.Proof.Gen.KernelIdeal.Frame
import proofs.«121307_j39676907887843_2_alg».proof.Proof.Spec
import proofs.«121307_j39676907887843_2_alg».proof.Proof.PowerReads
import proofs.«121307_j39676907887843_2_alg».proof.Proof.KronReads
import Idealize.ShloMosaic.Lib.StableHlo.Run
import Idealize.ShloMosaic.Lib.Pipeline.Value
import Idealize.ShloMosaic.Lib.IdealHost

noncomputable section

open scoped BigOperators

namespace Cert.PowerChain

open Idealize.ShloMosaic Idealize.ShloMosaic.TcCoe Idealize.ShloMosaic.ValueIdx Idealize.SL.Sem Cert.KernelIdeal Cert.KernelIdeal.Gen

/-- A reshape of a [2000000, 20] array to [400000, 100] read at (P, a): the two positions in row-major order agree,
    100 P + a = 20 (5 P + a / 20) + a mod 20. -/
theorem packed_apply (x : FVec Ideal S2000000x20 .f32) (P : Fin 400000) (a : Fin 100) :
    shapeCast S400000x100 x shapeCasts_S2000000x20_S400000x100 (ix2 P a)
      = x (ix2 (⟨5 * P.val + a.val / 20, by omega⟩ : Fin 2000000) (⟨a.val % 20, Nat.mod_lt _ (by decide)⟩ : Fin 20)) :=
  shapeCast_apply _ _ (ix2 P a) _ (by
    rw [Shape.rowMajor_val_two, Shape.rowMajor_val_two]
    show (5 * P.val + a.val / 20) * 20 + a.val % 20 = P.val * 100 + a.val
    omega)

/-- The packed rows are the reshape of the tall argument as launched. -/
theorem packed_term (m : (ℓ : Loc nD τ sig) → Buf (Elt Ideal) ℓ) (c : Dev nD) :
    (V (F := Ideal) m c main_v8 : S400000x100.Idx → EReal)
      = shapeCast S400000x100 (m ((c : Thread nD τ).loc main_arg0) : S2000000x20.Idx → EReal) shapeCasts_S2000000x20_S400000x100 := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The packed rows: row P of the [400000,100] array holds rows 5P … 5P+4 of x side by side. -/
theorem packed_rows_entry (m : (ℓ : Loc nD τ sig) → Buf (Elt Ideal) ℓ) (c : Dev nD) (P : Fin 400000) (a : Fin 100) :
    (V (F := Ideal) m c main_v8 : S400000x100.Idx → EReal) (ix2 P a)
      = (m ((c : Thread nD τ).loc main_arg0) : S2000000x20.Idx → EReal) (ix2 (⟨5 * P.val + a.val / 20, by omega⟩ : Fin 2000000) (⟨a.val % 20, Nat.mod_lt _ (by decide)⟩ : Fin 20)) :=
  (congrFun (packed_term m c) (ix2 P a)).trans (packed_apply _ P a)

/-- The block-diagonal weight is the identity of size five spread against the five host products of the square
    argument as launched. -/
theorem block_term (m : (ℓ : Loc nD τ sig) → Buf (Elt Ideal) ℓ) (c : Dev nD) :
    (V (F := Ideal) m c main_v7 : S100x100.Idx → EReal)
      = kronTerm eyeTerm (powTerm (m ((c : Thread nD τ).loc main_arg1) : S20x20.Idx → EReal)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The block-diagonal weight: entry (a, J) is the eleventh power's entry (a mod 20, J mod 20) when a and J lie in the same block of 20, and 0·(that entry) otherwise. -/
theorem block_weight_entry (m : (ℓ : Loc nD τ sig) → Buf (Elt Ideal) ℓ) (c : Dev nD) (a J : Fin 100) :
    (V (F := Ideal) m c main_v7 : S100x100.Idx → EReal) (ix2 a J)
      = (if a.val / 20 = J.val / 20 then (1 : EReal) else 0)
          * pw (cur (m ((c : Thread nD τ).loc main_arg1) : S20x20.Idx → EReal)) (⟨a.val % 20, Nat.mod_lt _ (by decide)⟩ : Fin 20) (⟨J.val % 20, Nat.mod_lt _ (by decide)⟩ : Fin 20) := by
  refine (congrFun (block_term m c) (ix2 a J)).trans ?_
  rw [kronTerm_apply, eyeTerm_apply, powTerm_apply]
  simp only [Fin.mk.injEq]

end Cert.PowerChain

end
-- ==== Proof.KernelSide.lean ====
/-
  The kernel's program ends with the common result in its result array.

  Put together: the result array is the packed product laid out as rows of 20 (the reshape after the region); the packed
  product is the packed rows times the block weight (the region); the packed rows are x with five rows side by side and
  the block weight is the eleventh power of w repeated down the diagonal with exact zeros elsewhere (the host operations
  before the region); and packing against a block-diagonal weight changes nothing. So entry (r, q) of the result array is
  entry (r, q) of x times the eleventh power of w.
-/
import proofs.«121307_j39676907887843_2_alg».proof.Proof.Tail
import proofs.«121307_j39676907887843_2_alg».proof.Proof.Collapse
import proofs.«121307_j39676907887843_2_alg».proof.Proof.HostReads

noncomputable section

open scoped BigOperators

namespace Cert.PowerChain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The result array after the whole program is the common result of the two argument arrays. -/
theorem kernel_result (c : Dev nD) :
    (Pipeline.afterTail₀ cfgs (dats m) 0 (V0 m) [hostOps1] c main_v10 : S2000000x20.Idx → EReal)
      = result (m ((c : Thread nD τ).loc main_arg0)) (m ((c : Thread nD τ).loc main_arg1)) := by
  funext i
  obtain ⟨r, q, rfl⟩ : ∃ (r : Fin 2000000) (q : Fin 20), i = ix2 r q := ⟨i 0, i 1, eq_ix2 i⟩
  rw [result_array_entry]
  unfold packedProduct result
  rw [unc_ix2, unc_ix2]
  exact packed_collapse (cur (m ((c : Thread nD τ).loc main_arg0) : S2000000x20.Idx → EReal))
    (pw (cur (m ((c : Thread nD τ).loc main_arg1) : S20x20.Idx → EReal)))
    (cur (V m c main_v8 : S400000x100.Idx → EReal)) (cur (V m c main_v7 : S100x100.Idx → EReal))
    (fun P a => packed_rows_entry m c P a) (fun a J => block_weight_entry m c a J) r q

/-- Every weakly fair execution of the kernel's program terminates with the result array at the common result and the
    argument arrays unchanged. -/
theorem kernel_run : θ_run defs (onTc (τ := τ) (main (F := Ideal))) ⟨m, fun _ => 0, ρ⟩ (fun r => ∀ c : Dev nD,
      r.2.mem ((c.tc : Thread nD τ).loc main_v10)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v10 (Pipeline.mem_restRefs_of main_v10 (by decide) (by decide))).trans (kernel_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.PowerChain

end
-- ==== Proof.RefSide.lean ====
/-
  The reference program read back, stage by stage.

  The reference multiplies the tall matrix by the square one eleven times, from the left. Each stage is one matrix
  product whose left factor is the stage before it: entry (p, q) of the new stage is the sum over k of entry (p, k)
  of the old stage times entry (k, q) of the square matrix. Written through rows and columns this is exactly the
  product `mm`, so after eleven stages the value is the eleven-fold chain. No regrouping of sums happens here, so
  nothing about the entries is assumed.
-/
import proofs.«121307_j39676907887843_2_alg».proof.Proof.Gen.ReferenceIdeal.Read
import proofs.«121307_j39676907887843_2_alg».proof.Proof.Spec

noncomputable section

open scoped BigOperators

namespace Cert.PowerChain

open Idealize.ShloMosaic Idealize.ShloMosaic.ValueIdx Cert.ReferenceIdeal

/-- The index a stage reads its left factor at: row of the result entry, column the summation variable. -/
theorem left_index (p : Fin 2000000) (q k : Fin 20) :
    Cert.ReferenceIdeal.Read.lidx_main_v0 (ix2 p q) k = ix2 p k :=
  funext fun a => Fin.ext (by
    match a with
    | ⟨0, _⟩ => rfl
    | ⟨1, _⟩ => rfl)

/-- The index a stage reads the square matrix at: row the summation variable, column of the result entry. -/
theorem right_index (p : Fin 2000000) (q k : Fin 20) :
    Cert.ReferenceIdeal.Read.ridx_main_v0 (ix2 p q) k = ix2 k q :=
  funext fun a => Fin.ext (by
    match a with
    | ⟨0, _⟩ => rfl
    | ⟨1, _⟩ => rfl)

/-- One stage: if the previous value is the array of `f` and the new value is, entry by entry, the sum the stage
    computes, then the new value is the array of the product of `f` with the square matrix. -/
theorem stage (y v : (⟨2, ![2000000, 20]⟩ : Shape).Idx → EReal) (w : (⟨2, ![20, 20]⟩ : Shape).Idx → EReal)
    (f : Fin 2000000 → Fin 20 → EReal) (hy : y = unc f)
    (hv : ∀ i, v i = ∑ k : Fin 20, y (Cert.ReferenceIdeal.Read.lidx_main_v0 i k) * w (Cert.ReferenceIdeal.Read.ridx_main_v0 i k)) :
    v = unc (mm f (cur w)) := by
  funext i
  obtain ⟨p, q, rfl⟩ : ∃ (p : Fin 2000000) (q : Fin 20), i = ix2 p q := ⟨i 0, i 1, eq_ix2 i⟩
  rw [hv, unc_ix2, mm_apply]
  refine Finset.sum_congr rfl fun k _ => ?_
  rw [left_index, right_index, hy, unc_ix2, cur_apply]

/-- After 1 product. -/
theorem stage_v0 (x0 : (⟨S2000000x20, .f32⟩ : BufTy).Contents (Elt Ideal)) (x1 : (⟨S20x20, .f32⟩ : BufTy).Contents (Elt Ideal)) :
    Cert.ReferenceIdeal.Read.val_main_v0 (F := Ideal) x0 x1 = unc (mm (cur x0) (cur x1)) :=
  stage (x0) (Cert.ReferenceIdeal.Read.val_main_v0 (F := Ideal) x0 x1) x1 (cur x0) (unc_cur x0).symm
    (Cert.ReferenceIdeal.Read.val_main_v0_apply x0 x1)

/-- After 2 products. -/
theorem stage_v1 (x0 : (⟨S2000000x20, .f32⟩ : BufTy).Contents (Elt Ideal)) (x1 : (⟨S20x20, .f32⟩ : BufTy).Contents (Elt Ideal)) :
    Cert.ReferenceIdeal.Read.val_main_v1 (F := Ideal) x0 x1 = unc (mm (mm (cur x0) (cur x1)) (cur x1)) :=
  stage (Cert.ReferenceIdeal.Read.val_main_v0 (F := Ideal) x0 x1) (Cert.ReferenceIdeal.Read.val_main_v1 (F := Ideal) x0 x1) x1 (mm (cur x0) (cur x1)) (stage_v0 x0 x1)
    (Cert.ReferenceIdeal.Read.val_main_v1_apply x0 x1)

/-- After 3 products. -/
theorem stage_v2 (x0 : (⟨S2000000x20, .f32⟩ : BufTy).Contents (Elt Ideal)) (x1 : (⟨S20x20, .f32⟩ : BufTy).Contents (Elt Ideal)) :
    Cert.ReferenceIdeal.Read.val_main_v2 (F := Ideal) x0 x1 = unc (mm (mm (mm (cur x0) (cur x1)) (cur x1)) (cur x1)) :=
  stage (Cert.ReferenceIdeal.Read.val_main_v1 (F := Ideal) x0 x1) (Cert.ReferenceIdeal.Read.val_main_v2 (F := Ideal) x0 x1) x1 (mm (mm (cur x0) (cur x1)) (cur x1)) (stage_v1 x0 x1)
    (Cert.ReferenceIdeal.Read.val_main_v2_apply x0 x1)

/-- After 4 products. -/
theorem stage_v3 (x0 : (⟨S2000000x20, .f32⟩ : BufTy).Contents (Elt Ideal)) (x1 : (⟨S20x20, .f32⟩ : BufTy).Contents (Elt Ideal)) :
    Cert.ReferenceIdeal.Read.val_main_v3 (F := Ideal) x0 x1 = unc (mm (mm (mm (mm (cur x0) (cur x1)) (cur x1)) (cur x1)) (cur x1)) :=
  stage (Cert.ReferenceIdeal.Read.val_main_v2 (F := Ideal) x0 x1) (Cert.ReferenceIdeal.Read.val_main_v3 (F := Ideal) x0 x1) x1 (mm (mm (mm (cur x0) (cur x1)) (cur x1)) (cur x1)) (stage_v2 x0 x1)
    (Cert.ReferenceIdeal.Read.val_main_v3_apply x0 x1)

/-- After 5 products. -/
theorem stage_v4 (x0 : (⟨S2000000x20, .f32⟩ : BufTy).Contents (Elt Ideal)) (x1 : (⟨S20x20, .f32⟩ : BufTy).Contents (Elt Ideal)) :
    Cert.ReferenceIdeal.Read.val_main_v4 (F := Ideal) x0 x1 = unc (mm (mm (mm (mm (mm (cur x0) (cur x1)) (cur x1)) (cur x1)) (cur x1)) (cur x1)) :=
  stage (Cert.ReferenceIdeal.Read.val_main_v3 (F := Ideal) x0 x1) (Cert.ReferenceIdeal.Read.val_main_v4 (F := Ideal) x0 x1) x1 (mm (mm (mm (mm (cur x0) (cur x1)) (cur x1)) (cur x1)) (cur x1)) (stage_v3 x0 x1)
    (Cert.ReferenceIdeal.Read.val_main_v4_apply x0 x1)

/-- After 6 products. -/
theorem stage_v5 (x0 : (⟨S2000000x20, .f32⟩ : BufTy).Contents (Elt Ideal)) (x1 : (⟨S20x20, .f32⟩ : BufTy).Contents (Elt Ideal)) :
    Cert.ReferenceIdeal.Read.val_main_v5 (F := Ideal) x0 x1 = unc (mm (mm (mm (mm (mm (mm (cur x0) (cur x1)) (cur x1)) (cur x1)) (cur x1)) (cur x1)) (cur x1)) :=
  stage (Cert.ReferenceIdeal.Read.val_main_v4 (F := Ideal) x0 x1) (Cert.ReferenceIdeal.Read.val_main_v5 (F := Ideal) x0 x1) x1 (mm (mm (mm (mm (mm (cur x0) (cur x1)) (cur x1)) (cur x1)) (cur x1)) (cur x1)) (stage_v4 x0 x1)
    (Cert.ReferenceIdeal.Read.val_main_v5_apply x0 x1)

/-- After 7 products. -/
theorem stage_v6 (x0 : (⟨S2000000x20, .f32⟩ : BufTy).Contents (Elt Ideal)) (x1 : (⟨S20x20, .f32⟩ : BufTy).Contents (Elt Ideal)) :
    Cert.ReferenceIdeal.Read.val_main_v6 (F := Ideal) x0 x1 = unc (mm (mm (mm (mm (mm (mm (mm (cur x0) (cur x1)) (cur x1)) (cur x1)) (cur x1)) (cur x1)) (cur x1)) (cur x1)) :=
  stage (Cert.ReferenceIdeal.Read.val_main_v5 (F := Ideal) x0 x1) (Cert.ReferenceIdeal.Read.val_main_v6 (F := Ideal) x0 x1) x1 (mm (mm (mm (mm (mm (mm (cur x0) (cur x1)) (cur x1)) (cur x1)) (cur x1)) (cur x1)) (cur x1)) (stage_v5 x0 x1)
    (Cert.ReferenceIdeal.Read.val_main_v6_apply x0 x1)

/-- After 8 products. -/
theorem stage_v7 (x0 : (⟨S2000000x20, .f32⟩ : BufTy).Contents (Elt Ideal)) (x1 : (⟨S20x20, .f32⟩ : BufTy).Contents (Elt Ideal)) :
    Cert.ReferenceIdeal.Read.val_main_v7 (F := Ideal) x0 x1 = unc (mm (mm (mm (mm (mm (mm (mm (mm (cur x0) (cur x1)) (cur x1)) (cur x1)) (cur x1)) (cur x1)) (cur x1)) (cur x1)) (cur x1)) :=
  stage (Cert.ReferenceIdeal.Read.val_main_v6 (F := Ideal) x0 x1) (Cert.ReferenceIdeal.Read.val_main_v7 (F := Ideal) x0 x1) x1 (mm (mm (mm (mm (mm (mm (mm (cur x0) (cur x1)) (cur x1)) (cur x1)) (cur x1)) (cur x1)) (cur x1)) (cur x1)) (stage_v6 x0 x1)
    (Cert.ReferenceIdeal.Read.val_main_v7_apply x0 x1)

/-- After 9 products. -/
theorem stage_v8 (x0 : (⟨S2000000x20, .f32⟩ : BufTy).Contents (Elt Ideal)) (x1 : (⟨S20x20, .f32⟩ : BufTy).Contents (Elt Ideal)) :
    Cert.ReferenceIdeal.Read.val_main_v8 (F := Ideal) x0 x1 = unc (mm (mm (mm (mm (mm (mm (mm (mm (mm (cur x0) (cur x1)) (cur x1)) (cur x1)) (cur x1)) (cur x1)) (cur x1)) (cur x1)) (cur x1)) (cur x1)) :=
  stage (Cert.ReferenceIdeal.Read.val_main_v7 (F := Ideal) x0 x1) (Cert.ReferenceIdeal.Read.val_main_v8 (F := Ideal) x0 x1) x1 (mm (mm (mm (mm (mm (mm (mm (mm (cur x0) (cur x1)) (cur x1)) (cur x1)) (cur x1)) (cur x1)) (cur x1)) (cur x1)) (cur x1)) (stage_v7 x0 x1)
    (Cert.ReferenceIdeal.Read.val_main_v8_apply x0 x1)

/-- After 10 products. -/
theorem stage_v9 (x0 : (⟨S2000000x20, .f32⟩ : BufTy).Contents (Elt Ideal)) (x1 : (⟨S20x20, .f32⟩ : BufTy).Contents (Elt Ideal)) :
    Cert.ReferenceIdeal.Read.val_main_v9 (F := Ideal) x0 x1 = unc (mm (mm (mm (mm (mm (mm (mm (mm (mm (mm (cur x0) (cur x1)) (cur x1)) (cur x1)) (cur x1)) (cur x1)) (cur x1)) (cur x1)) (cur x1)) (cur x1)) (cur x1)) :=
  stage (Cert.ReferenceIdeal.Read.val_main_v8 (F := Ideal) x0 x1) (Cert.ReferenceIdeal.Read.val_main_v9 (F := Ideal) x0 x1) x1 (mm (mm (mm (mm (mm (mm (mm (mm (mm (cur x0) (cur x1)) (cur x1)) (cur x1)) (cur x1)) (cur x1)) (cur x1)) (cur x1)) (cur x1)) (cur x1)) (stage_v8 x0 x1)
    (Cert.ReferenceIdeal.Read.val_main_v9_apply x0 x1)

/-- After 11 products. -/
theorem stage_v10 (x0 : (⟨S2000000x20, .f32⟩ : BufTy).Contents (Elt Ideal)) (x1 : (⟨S20x20, .f32⟩ : BufTy).Contents (Elt Ideal)) :
    Cert.ReferenceIdeal.Read.val_main_v10 (F := Ideal) x0 x1 = unc (mm (mm (mm (mm (mm (mm (mm (mm (mm (mm (mm (cur x0) (cur x1)) (cur x1)) (cur x1)) (cur x1)) (cur x1)) (cur x1)) (cur x1)) (cur x1)) (cur x1)) (cur x1)) (cur x1)) :=
  stage (Cert.ReferenceIdeal.Read.val_main_v9 (F := Ideal) x0 x1) (Cert.ReferenceIdeal.Read.val_main_v10 (F := Ideal) x0 x1) x1 (mm (mm (mm (mm (mm (mm (mm (mm (mm (mm (cur x0) (cur x1)) (cur x1)) (cur x1)) (cur x1)) (cur x1)) (cur x1)) (cur x1)) (cur x1)) (cur x1)) (cur x1)) (stage_v9 x0 x1)
    (Cert.ReferenceIdeal.Read.val_main_v10_apply x0 x1)

/-- The reference's result is the eleven-fold chain of products. -/
theorem reference_eq_chain (x0 : (⟨S2000000x20, .f32⟩ : BufTy).Contents (Elt Ideal)) (x1 : (⟨S20x20, .f32⟩ : BufTy).Contents (Elt Ideal)) :
    Cert.ReferenceIdeal.Read.val_main_v10 (F := Ideal) x0 x1 = unc (chain (cur x0) (cur x1)) :=
  stage_v10 x0 x1

end Cert.PowerChain

end
-- ==== Proof.LibFiniteEntry.lean ====
/-
  Finite entries are real numbers.

  On the extended reals the absolute value of x is max(x, -x); it is +infinity exactly when x is one of the two
  infinities. So an entry whose absolute value is strictly below +infinity is a real number. A program tests "every entry
  of x is finite" as  all(|x| < inf):  the comparison entry by entry against a broadcast +infinity, reduced by `and` over
  every axis from the constant true. If the test's one result is true, every entry passed the comparison, and so is real.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteEntry

open Idealize.ShloMosaic Idealize.ShloMosaic.ValueIdx

/-- The shape with no axes has one index. -/
instance : Subsingleton (⟨0, ![]⟩ : Shape).Idx := ⟨fun a b => funext fun d => d.elim0⟩

/-- An extended real whose absolute value is below +infinity is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One "all entries are finite" test that came out true, read at an entry: the entry is a real number. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi (cmpf .olt (Host.absf x) (broadcastInDim s ![] hb (constant (F := Ideal) ⟨0, ![]⟩ .f32 0x7F800000#32)))
      init hr hu ix0 = 1#1)
    (i : s.Idx) : ∃ r : ℝ, x i = (r : EReal) := by
  have h1 := Host.reduce_andi_all _ init hr hu ix0 e i
  apply real_of_abs_lt_inf
  have hb' : broadcastInDim s ![] hb (constant (F := Ideal) ⟨0, ![]⟩ .f32 0x7F800000#32) i = Ideal.ofBits .f32 0x7F800000#32 :=
    broadcastInDim_apply _ hb _ i ix0 (fun a => a.elim0)
  rw [← hb']
  exact h1

end Cert.LibFiniteEntry

end
-- ==== Proof.Finite.lean ====
/-
  The precondition, read entry by entry.

  The precondition tests each of the two argument arrays with  all(|x| < inf)  and joins the two tests by `and`. Its
  one result being true therefore says that both tests are true, and a true test says that every entry of its array
  has absolute value below +infinity, that is, is a real number.
-/
import proofs.«121307_j39676907887843_2_alg».proof.Pre_finite_inputs
import proofs.«121307_j39676907887843_2_alg».proof.Proof.LibFiniteEntry
import Idealize.ShloMosaic.Lib.ReduceAll

noncomputable section

namespace Cert.PowerChain

open Idealize.ShloMosaic Idealize.ShloMosaic.ValueIdx

/-- Under the precondition every entry of both arguments is a real number. -/
theorem entries_real [Cert.Pre_finite_inputs.Facts] (a0 : FVec Ideal Cert.Pre_finite_inputs.S2000000x20 .f32)
    (a1 : FVec Ideal Cert.Pre_finite_inputs.S20x20 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  -- the joined test is true exactly when both tests are
  obtain ⟨e0, e1⟩ := IntOp.andi_eq_one.1 h0
  exact ⟨Cert.LibFiniteEntry.real_of_all a0 _ _ _ _ e0, Cert.LibFiniteEntry.real_of_all a1 _ _ _ _ e1⟩

end Cert.PowerChain

end
-- ==== Proof.Algebra.lean ====
/-
  Regrouping a product of matrices of real numbers.

  The product of matrices of extended reals is a finite sum of products of entries. When every entry is a real number
  that sum is the coercion of the same sum over the reals, so the product is the coercion of the real matrix product.
  Over the reals the matrix product is associative, hence eleven products from the left and the product with the
  eleventh power formed by repeated squaring are the same matrix: both are the product of the same twelve factors in
  the same order, and only the grouping differs.
-/
import proofs.«121307_j39676907887843_2_alg».proof.Proof.Spec
import Mathlib.Data.Matrix.Mul
import Mathlib.Data.EReal.Basic

noncomputable section

open scoped BigOperators

namespace Cert.PowerChain

/-- The coercion of a finite sum of real numbers is the sum of the coercions. -/
theorem coe_sum {ι : Type} (s : Finset ι) (f : ι → ℝ) :
    ((∑ a ∈ s, f a : ℝ) : EReal) = ∑ a ∈ s, ((f a : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- The product of two matrices of real numbers, computed in the extended reals, is the real matrix product. -/
theorem mm_coe {R K C : Nat} (L : Matrix (Fin R) (Fin K) ℝ) (M : Matrix (Fin K) (Fin C) ℝ) :
    mm (fun p a => ((L p a : ℝ) : EReal)) (fun a c => ((M a c : ℝ) : EReal))
      = fun p c => (((L * M) p c : ℝ) : EReal) := by
  funext p c
  rw [mm_apply, Matrix.mul_apply, coe_sum]
  exact Finset.sum_congr rfl fun a _ => (EReal.coe_mul _ _).symm

/-- With real entries, eleven products from the left equal the one product with the eleventh power. -/
theorem chain_eq_of_real {R : Nat} (x : Fin R → Fin 20 → EReal) (w : Fin 20 → Fin 20 → EReal)
    (hx : ∀ p a, ∃ r : ℝ, x p a = (r : EReal)) (hw : ∀ a c, ∃ r : ℝ, w a c = (r : EReal)) :
    chain x w = mm x (pw w) := by
  obtain ⟨X, ex⟩ : ∃ X : Matrix (Fin R) (Fin 20) ℝ, x = fun p a => ((X p a : ℝ) : EReal) := by
    choose X hX using hx
    exact ⟨X, funext fun p => funext fun a => hX p a⟩
  obtain ⟨W, ew⟩ : ∃ W : Matrix (Fin 20) (Fin 20) ℝ, w = fun a c => ((W a c : ℝ) : EReal) := by
    choose W hW using hw
    exact ⟨W, funext fun a => funext fun c => hW a c⟩
  rw [ex, ew]
  unfold chain pw
  -- both sides become the coercion of a product of X and eleven copies of W; associativity nests both to the right
  simp only [mm_coe, Matrix.mul_assoc]

end Cert.PowerChain

end
-- ==== Proof.lean ====
/-
  The two programs agree on the extended reals.

  The arguments are x (2000000 rows of 20) and w (20 by 20), every entry finite. The reference multiplies x by w eleven
  times from the left. The kernel's program first forms the eleventh power of w by repeated squaring
  (w2 = w w, w3 = w w2, w4 = w2 w2, w8 = w4 w4, w11 = w3 w8), repeats it five times down the diagonal of a 100-by-100
  matrix whose other entries are exact zeros, lays x out with five consecutive rows side by side (400000 rows of 100),
  multiplies the two on the matrix unit band by band (40 bands of 10000 packed rows; the narrowing to bf16 is the identity
  in exact arithmetic and the accumulator starts at zero), and lays the product back out as rows of 20.

  Both are x times the eleventh power of w. For the kernel this needs no finiteness: the block-diagonal weight only adds
  terms with an exact factor 0, and 0 * y = 0 on all extended reals. For the reference it is associativity of the matrix
  product, which regroups sums of products and so needs every entry to be a real number: that is what the precondition
  gives. The common result (Spec) is stated in the kernel's grouping.

  The three frame claims are the generated frames (the reference's is its generated run with the result dropped); the
  idealization rewrote no operation, so the fourth claim is trivial.
-/
import proofs.«121307_j39676907887843_2_alg».proof.Defs
import proofs.«121307_j39676907887843_2_alg».proof.Proof.Gen.Kernel
import proofs.«121307_j39676907887843_2_alg».proof.Proof.Gen.Kernel.Frame
import proofs.«121307_j39676907887843_2_alg».proof.Proof.Gen.KernelIdeal
import proofs.«121307_j39676907887843_2_alg».proof.Proof.Gen.KernelIdeal.Frame
import proofs.«121307_j39676907887843_2_alg».proof.Proof.Gen.ReferenceIdeal
import proofs.«121307_j39676907887843_2_alg».proof.Proof.Gen.Pre_finite_inputs
import proofs.«121307_j39676907887843_2_alg».proof.Proof.Gen.ReferenceIdeal.Run
import proofs.«121307_j39676907887843_2_alg».proof.Proof.Gen.ReferenceIdeal.Read
import proofs.«121307_j39676907887843_2_alg».proof.Proof.KernelSide
import proofs.«121307_j39676907887843_2_alg».proof.Proof.RefSide
import proofs.«121307_j39676907887843_2_alg».proof.Proof.Finite
import proofs.«121307_j39676907887843_2_alg».proof.Proof.Algebra
import Idealize.ShloMosaic.Adequacy
import Idealize.ShloMosaic.Init

noncomputable section

namespace Cert.Proof

open Idealize.ShloMosaic Idealize.ShloMosaic.TcCoe Idealize.ShloMosaic.ValueIdx Idealize.SL.Sem Cert.PowerChain

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The kernel's result array ends at x times the eleventh power of w in the kernel's grouping; the reference's ends at
    the eleven-fold product from the left of arguments that agree with the kernel's; for real entries the two groupings
    are one matrix. -/
theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := entries_real _ _ (hpre c)
  rw [(hagree c).1, (hagree c).2, Cert.ReferenceIdeal.Read.val_main_v10_eq, reference_eq_chain]
  exact congrArg unc (chain_eq_of_real
    (cur (m ((c.tc : Thread Cert.KernelIdeal.nD Cert.KernelIdeal.τ).loc Cert.KernelIdeal.main_arg0)))
    (cur (m ((c.tc : Thread Cert.KernelIdeal.nD Cert.KernelIdeal.τ).loc Cert.KernelIdeal.main_arg1)))
    (fun p a => h0 (ix2 p a)) (fun a q => h1 (ix2 a q)))

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
